-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_arg0)) (v2 : (c : Dev Cert.KernelIdeal.nD) → Buf (Elt Ideal) ((c.tc : Thread Cert.KernelIdeal.nD Cert.KernelIdeal.τ).loc Cert.KernelIdeal.main_arg1)) (v3 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_v0_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x128 : Shape := ⟨3, ![2, 4096, 128]⟩
abbrev S1x128 : Shape := ⟨2, ![1, 128]⟩
abbrev S_ : Shape := ⟨0, ![]⟩

class Facts : Prop where
  bcast_S_S2x4096x128 : S_.BroadcastsInDim S2x4096x128 (![] : Fin 0 → Fin S2x4096x128.rank)
  reducesTo_S2x4096x128_S_d0_1_2 : S2x4096x128.ReducesTo [0, 1, 2] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S2x4096x128 .f32) (main_arg1 : FVec F S2x4096x128 .f32) (main_arg2 : FVec F S1x128 .f32) : IVec S_ 1 :=
  let main_v0 : FVec F S2x4096x128 .f32 := Host.absf main_arg0
  let main_cst : FVec F S_ .f32 := constant S_ .f32 0x7F800000#32
  let main_v1 : FVec F S2x4096x128 .f32 := broadcastInDim S2x4096x128 ![] bcast_S_S2x4096x128 main_cst
  let main_v2 : IVec S2x4096x128 1 := cmpf .olt main_v0 main_v1
  let main_c : IVec S_ 1 := constantI S_ 1 1#1
  let main_v3 : IVec S_ 1 := (fun x v => Host.reduce IntOp.andi x v reducesTo_S2x4096x128_S_d0_1_2 h_S_) main_v2 main_c
  let main_v4 : FVec F S2x4096x128 .f32 := Host.absf main_arg1
  let main_cst_0 : FVec F S_ .f32 := constant S_ .f32 0x7F800000#32
  let main_v5 : FVec F S2x4096x128 .f32 := broadcastInDim S2x4096x128 ![] bcast_S_S2x4096x128 main_cst_0
  let main_v6 : IVec S2x4096x128 1 := cmpf .olt main_v4 main_v5
  let main_c_1 : IVec S_ 1 := constantI S_ 1 1#1
  let main_v7 : IVec S_ 1 := (fun x v => Host.reduce IntOp.andi x v reducesTo_S2x4096x128_S_d0_1_2 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  main_v13
-- ==== Kernel.lean ====
abbrev S2x4096x128 : Shape := ⟨3, ![2, 4096, 128]⟩
abbrev S1x128 : Shape := ⟨2, ![1, 128]⟩
abbrev S2x4096x4096 : Shape := ⟨3, ![2, 4096, 4096]⟩
abbrev S1x512x128 : Shape := ⟨3, ![1, 512, 128]⟩
abbrev S1x4096x128 : Shape := ⟨3, ![1, 4096, 128]⟩
abbrev S1x512x4096 : Shape := ⟨3, ![1, 512, 4096]⟩
abbrev S512x128 : Shape := ⟨2, ![512, 128]⟩
abbrev S4096x128 : Shape := ⟨2, ![4096, 128]⟩
abbrev S512x4096 : Shape := ⟨2, ![512, 4096]⟩

abbrev nBuf : Space → Nat
  | .hbm => 5
  | .vmem => 8
  | .smem => 0
  | _ => 0

abbrev bufTy : (tb : Table) → Fin (tcTables nBuf tb) → BufTy
  | .hbm, ⟨0, _⟩ => ⟨S2x4096x128, .f32⟩
  | .hbm, ⟨1, _⟩ => ⟨S2x4096x128, .f32⟩
  | .hbm, ⟨2, _⟩ => ⟨S1x128, .f32⟩
  | .hbm, ⟨3, _⟩ => ⟨S2x4096x4096, .f32⟩
  | .hbm, ⟨4, _⟩ => ⟨S1x128, .f32⟩
  | .local _ .vmem, ⟨0, _⟩ => ⟨S1x512x128, .f32⟩
  | .local _ .vmem, ⟨1, _⟩ => ⟨S1x512x128, .f32⟩
  | .local _ .vmem, ⟨2, _⟩ => ⟨S1x4096x128, .f32⟩
  | .local _ .vmem, ⟨3, _⟩ => ⟨S1x4096x128, .f32⟩
  | .local _ .vmem, ⟨4, _⟩ => ⟨S1x128, .f32⟩
  | .local _ .vmem, ⟨5, _⟩ => ⟨S1x512x4096, .f32⟩
  | .local _ .vmem, ⟨6, _⟩ => ⟨S1x512x4096, .f32⟩
  | .local _ .vmem, ⟨7, _⟩ => ⟨S1x128, .f32⟩
  | _, _ => ⟨S2x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let arg1 : BitVec 32 := BitVec.ofNat 32 (i 1).val
  let c0_i32_11 : BitVec 32 := 0#32
  let v16 : BitVec 1 := Scalar.cmpi .eq arg1 c0_i32_11
  let v17 : BitVec 1 := Scalar.andi v15 v16
  let v18 : BitVec 32 := Scalar.extui v17
  let c0_i32_12 : BitVec 32 := 0#32
  let v19 : BitVec 1 := Scalar.cmpi .ne v18 c0_i32_12
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S512x4096_S1x512x4096 : S512x4096.ShapeCasts S1x512x4096
  inb_S1x128_S1x128_0_0 : ∀ a, (![0, 0] : Fin 2 → Nat) a + S1x128.size a ≤ S1x128.size a
  h_S1x128 : 0 < S1x128.numel
  dot_S512x128_S4096x128_S512x4096_1_1_0_0_n_n_wf : DotDims.WF S512x128 S4096x128 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S2x4096x128.size a
  hwx0_0 : ∀ i : grid0.Coords, EltTy.bits .f32 = 32 ∨ (Rect.block (s := S2x4096x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S2x4096x128.size a
  hwx0_1 : ∀ i : grid0.Coords, EltTy.bits .f32 = 32 ∨ (Rect.block (s := S2x4096x128) S1x4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x4096.size a ≤ S2x4096x4096.size a
  hwx0_3 : ∀ i : grid0.Coords, EltTy.bits .f32 = 32 ∨ (Rect.block (s := S2x4096x4096) S1x512x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)

variable [Facts₀]

def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x512x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) | ⟨_ + 5, h⟩ => absurd h (Nat.not_lt.2 (Nat.le_add_left _ _))

class Facts : Prop extends Facts₀ where

variable [Facts]
-- ==== ReferenceIdeal.lean ====
abbrev S2x4096x128 : Shape := ⟨3, ![2, 4096, 128]⟩
abbrev S1x128 : Shape := ⟨2, ![1, 128]⟩
abbrev S_ : Shape := ⟨0, ![]⟩
abbrev S2x4096x4096 : Shape := ⟨3, ![2, 4096, 4096]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x128, .f32⟩
  | .hbm, ⟨1, _⟩ => ⟨S2x4096x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S_, .f32⟩
  | .hbm, ⟨6, _⟩ => ⟨S1x128, .f32⟩
  | .hbm, ⟨7, _⟩ => ⟨S1x128, .f32⟩
  | .hbm, ⟨8, _⟩ => ⟨S_, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S2x4096x4096, .f32⟩
  | .hbm, ⟨15, _⟩ => ⟨S2x4096x4096, .f32⟩
  | .hbm, ⟨16, _⟩ => ⟨S2x4096x4096, .f32⟩
  | .hbm, ⟨17, _⟩ => ⟨S_, .f32⟩
  | .hbm, ⟨18, _⟩ => ⟨S2x4096x4096, .f32⟩
  | .hbm, ⟨19, _⟩ => ⟨S2x4096x4096, .f32⟩
  | .hbm, ⟨20, _⟩ => ⟨S_, .f32⟩
  | .hbm, ⟨21, _⟩ => ⟨S2x4096x4096, .f32⟩
  | .hbm, ⟨22, _⟩ => ⟨S2x4096x4096, .f32⟩
  | .hbm, ⟨23, _⟩ => ⟨S1x128, .f32⟩
  | _, _ => ⟨S2x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S1x128 : S_.BroadcastsInDim S1x128 (![] : Fin 0 → Fin S1x128.rank)
  bcast_S_S2x4096x4096 : S_.BroadcastsInDim S2x4096x4096 (![] : Fin 0 → Fin S2x4096x4096.rank)
  dot_S2x4096x128_S2x4096x128_S2x4096x4096_2_2_1_1_0_0_wf : DotDims.WF S2x4096x128 S2x4096x128 S2x4096x4096 [2] [2] [1] [1] [0] [0]

variable [Facts₀]

def dot_S2x4096x128_S2x4096x128_S2x4096x4096_2_2_1_1_0_0 : DotDims S2x4096x128 S2x4096x128 S2x4096x4096 where
  lhsContracting := [2]
  rhsContracting := [2]
  lhsNonContracting := [1]
  rhsNonContracting := [1]
  lhsBatch := [0]
  rhsBatch := [0]
  wf := dot_S2x4096x128_S2x4096x128_S2x4096x4096_2_2_1_1_0_0_wf

class Facts : Prop extends Facts₀ where

variable [Facts]
-- ==== Proof.LaunchKernel.lean ====
/-
  The launch of the one kernel, point by point.

  The grid has 16 points (2 batches × 8 row tiles). At every point the body reads a 512-row tile of the first
  operand and the whole 4096-row slab of the second operand's batch, and overwrites the 512 × 4096 tile of the first
  result with a function of those two blocks alone. The second result, one row of 128 numbers, is stored at the first
  point only; its staging buffer is not touched at the fifteen later points and is written back once, after the last
  one. So what that buffer holds when it is written back is what the first point stored: the fifteen later points
  find it, one after the other, as the point before left it.

  This module states what each staging buffer holds after the body at each point, proves the body's two runs (the
  first point; every later point), and concludes the run of the whole program: every weakly fair execution terminates
  with each result array at the contents the write-backs give it and the arguments unchanged.
-/
import proofs.«130213_g55533927137529_cont_9to1_m_314_6_alg».proof.Proof.Gen.Kernel.Frame
import proofs.«130213_g55533927137529_cont_9to1_m_314_6_alg».proof.Proof.Gen.Kernel.Skeleton
import Idealize.ShloMosaic.Lib.Pipeline.Frame
import Idealize.ShloMosaic.Lib.Exec.Geometry

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The whole-buffer rectangles the body reads and writes through -/

/-- All of a 1 × 512 × 128 buffer, -/
abbrev rTile : Rect S1x512x128 := Rect.unit (s := S1x512x128) ![0, 0, 0] S1x512x128.size inb_S1x512x128_S1x512x128_0_0_0
/-- all of a 1 × 4096 × 128 buffer, -/
abbrev rSlab : Rect S1x4096x128 := Rect.unit (s := S1x4096x128) ![0, 0, 0] S1x4096x128.size inb_S1x4096x128_S1x4096x128_0_0_0
/-- all of a 1 × 512 × 4096 buffer, -/
abbrev rOut : Rect S1x512x4096 := Rect.unit (s := S1x512x4096) ![0, 0, 0] S1x512x4096.size inb_S1x512x4096_S1x512x4096_0_0_0
/-- all of a 1 × 128 buffer. -/
abbrev rRow : Rect S1x128 := Rect.unit (s := S1x128) ![0, 0] S1x128.size inb_S1x128_S1x128_0_0

/-! ## What the body leaves in the two output buffers -/

/-- The first result's buffer after the body: its one store, of the two input blocks. -/
def outTile (x0 : Vec F S1x512x128 .f32) (x1 : Vec F S1x4096x128 .f32) : Vec F S1x512x4096 .f32 :=
  View.canon [⟨rOut, k0_pay1 (View.ld x0 rTile) (View.ld x1 rSlab)⟩]

/-- The second result's buffer after the body of the first point: its one store, of the third input's block. -/
def outRow (x2 : Vec F S1x128 .f32) : Vec F S1x128 .f32 :=
  View.canon [⟨rRow, k0_pay2 (View.ld x2 rRow)⟩]

/-- A store through the whole-buffer rectangle covers the buffer. -/
theorem coverTile (p : Vec F S1x512x4096 .f32) (y : S1x512x4096.Idx) :
    ∃ pc ∈ ([⟨rOut, p⟩] : List (View.Piece (Elt F) S1x512x4096 .f32)), y ∈ pc.1.set :=
  View.cover_of_tiled [⟨rOut, p⟩] S1x512x4096.size (by rfl) y
theorem coverRow (p : Vec F S1x128 .f32) (y : S1x128.Idx) :
    ∃ pc ∈ ([⟨rRow, p⟩] : List (View.Piece (Elt F) S1x128 .f32)), y ∈ pc.1.set :=
  View.cover_of_tiled [⟨rRow, p⟩] S1x128.size (by rfl) y

/-! ## The branch: taken at the first point only -/

/-- The body's condition (batch 0 and row tile 0) holds at the first point and at no other. -/
theorem cond_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-! ## The body's two runs -/

set_option maxHeartbeats 2000000 in
/-- At the first point: from the three inputs' buffers at `x0`, `x1`, `x2` and the two outputs' at anything, the body
    runs to the inputs' buffers as they were, the first output's at `outTile x0 x1` and the second's at `outRow x2`. -/
theorem run_first (c : Dev nD) (E : Set ℕ) (i : grid0.Coords)
    (arg2 : Memref sig .tc .vmem S1x512x128 .f32) (harg2 : arg2.IsWhole) (arg3 : Memref sig .tc .vmem S1x4096x128 .f32) (harg3 : arg3.IsWhole)
    (arg4 : Memref sig .tc .vmem S1x128 .f32) (harg4 : arg4.IsWhole) (arg5 : Memref sig .tc .vmem S1x512x4096 .f32) (harg5 : arg5.IsWhole)
    (arg6 : Memref sig .tc .vmem S1x128 .f32) (harg6 : arg6.IsWhole) (hc : k0_cond1 i = 1#1)
    (x0 : Vec F S1x512x128 .f32) (x1 : Vec F S1x4096x128 .f32) (x2 : Vec F S1x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outTile x0 x1) ∗ owns (c : Thread nD τ) arg6 fullShare (outRow x2)) -∗ K ⟨⟩))
      ⊢ wp frame (wpE (defs₀ (F := F)) Variants.none c none) E (cc0__adj_kernel i arg2 harg2 arg3 harg3 arg4 harg4 arg5 harg5 arg6 harg6) K := by
  simp only [cc0__adj_kernel_eq_skeleton]; unfold cc0__adj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverTile _)
  iexists _; isplitr
  swap; · iexact H4
  ipureintro
  exact View.read_writes_eq_canon _ _ _ (coverRow _)

set_option maxHeartbeats 2000000 in
/-- At every later point: the same, but the second output's buffer, found at `y`, is handed back at `y`. -/
theorem run_later (c : Dev nD) (E : Set ℕ) (i : grid0.Coords)
    (arg2 : Memref sig .tc .vmem S1x512x128 .f32) (harg2 : arg2.IsWhole) (arg3 : Memref sig .tc .vmem S1x4096x128 .f32) (harg3 : arg3.IsWhole)
    (arg4 : Memref sig .tc .vmem S1x128 .f32) (harg4 : arg4.IsWhole) (arg5 : Memref sig .tc .vmem S1x512x4096 .f32) (harg5 : arg5.IsWhole)
    (arg6 : Memref sig .tc .vmem S1x128 .f32) (harg6 : arg6.IsWhole) (hc : ¬ k0_cond1 i = 1#1)
    (x0 : Vec F S1x512x128 .f32) (x1 : Vec F S1x4096x128 .f32) (x2 : Vec F S1x128 .f32) (y : Vec F S1x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare y
        ∗ (iprop(owns (c : Thread nD τ) arg2 fullShare x0 ∗ owns (c : Thread nD τ) arg3 fullShare x1 ∗ owns (c : Thread nD τ) arg4 fullShare x2
            ∗ owns (c : Thread nD τ) arg5 fullShare (outTile x0 x1) ∗ owns (c : Thread nD τ) arg6 fullShare y) -∗ K ⟨⟩))
      ⊢ wp frame (wpE (defs₀ (F := F)) Variants.none c none) E (cc0__adj_kernel i arg2 harg2 arg3 harg3 arg4 harg4 arg5 harg5 arg6 harg6) K := by
  simp only [cc0__adj_kernel_eq_skeleton]; unfold cc0__adj_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverTile _)
  iexists f4; isplitr; · ipureintro; rfl
  iexact H4

/-! ## The pipeline's proof data -/

/-- What each staging buffer holds after the body at point `t`: each input's its block; the first result's the tile
    computed from the point's two blocks; the second result's, at every point, what the FIRST point stored (the row
    computed from the third input's block there) — the later points leave it as they find it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outTile (iblk m c 0 t) (iblk m c 1 t)
    | ⟨4, _⟩ => outRow (iblk m c 2 t0_0)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outTile (iblk m c 0 t) (iblk m c 1 t) := by dsimp only [dats]
theorem after0_4 (c : Dev nD) (t : Fin cfg0.N) : (dats m 0 c).after 4 t = outRow (iblk m c 2 t0_0) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The second result's buffer, point by point -/

/-- Where the windows are idle: the inputs and the first result never; the second result at every point but the first. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem idle0_4 : ∀ t : Fin cfg0.N, cfg0.idle 4 (grid0.coords t) = decide (t.val % 16 ≠ 0) := by decide +kernel

/-- The second result's window is never fetched (it is an output). -/
theorem fetch0_4 (t : Fin cfg0.N) : (cfg0.win 4).fetch t = false := (cfg0.win 4).fetch_out rfl t

/-- At the first point the second result's window is live; at every later point it is idle. -/
theorem idle0_4_first (t : Fin cfg0.N) (h : t.val % 16 = 0) : cfg0.idle 4 (grid0.coords t) = false := by
  rw [idle0_4]; exact decide_eq_false (by omega)
theorem idle0_4_later (t : Fin cfg0.N) (h : t.val % 16 ≠ 0) : cfg0.idle 4 (grid0.coords t) = true := by
  rw [idle0_4]; exact decide_eq_true h

/-- Its block is written back at no point but the last. -/
theorem noflush0_4 (t : Fin cfg0.N) (h : t.val % 16 ≠ 15) : (cfg0.win 4).flush t = false :=
  Bool.eq_false_iff.mpr fun hf => h ((flush0_4 t).mp hf)

/-- One step back: at a point after the first the buffer holds what the point before left. -/
theorem before0_4_step (c : Dev nD) (d) (n : ℕ) (hn : n + 1 < cfg0.N) :
    (dats m 0 c).before 4 ⟨n + 1, hn⟩ d = (dats m 0 c).left 4 ⟨n, Nat.lt_of_succ_lt hn⟩ d := by
  have h16 : n + 1 < 16 := lt_of_lt_of_eq hn (show cfg0.N = 16 from N_0)
  have hfl : (cfg0.win 4).flush (⟨n, Nat.lt_of_succ_lt hn⟩ : Fin cfg0.N) = false :=
    noflush0_4 _ (by show ¬ (n % 16 = 15); omega)
  rw [(dats m 0 c).before_of_pos 4 ⟨n + 1, hn⟩ (Nat.succ_ne_zero n) (fetch0_4 _) d]
  exact if_neg fun h => Bool.false_ne_true (hfl.symm.trans h)

/-- At every point after the first, the second result's buffer holds what the first point stored: the point before
    either is the first (which stored it) or found it so and left it. -/
theorem before0_4 (c : Dev nD) (d) : ∀ (n : ℕ) (hn : n + 1 < cfg0.N),
    (dats m 0 c).before 4 ⟨n + 1, hn⟩ d = outRow (iblk m c 2 t0_0)
  | 0, hn => by
    rw [before0_4_step m c d 0 hn]
    unfold Dat.left
    rw [idle0_4_first ⟨0, Nat.lt_of_succ_lt hn⟩ rfl]
    dsimp only
    unfold Dat.kept
    rw [after0_4]
    rfl
  | n + 1, hn => by
    have h16 : n + 1 + 1 < 16 := lt_of_lt_of_eq hn (show cfg0.N = 16 from N_0)
    rw [before0_4_step m c d (n + 1) hn]
    unfold Dat.left
    rw [idle0_4_later ⟨n + 1, Nat.lt_of_succ_lt hn⟩ (by show ¬ ((n + 1) % 16 = 0); omega)]
    dsimp only
    exact before0_4 c d n (Nat.lt_of_succ_lt hn)

/-- The same, at a point named by its number. -/
theorem before0_4' (c : Dev nD) (t : Fin cfg0.N) (ht : t.val ≠ 0) (d) : (dats m 0 c).before 4 t d = outRow (iblk m c 2 t0_0) := by
  obtain ⟨v, hv⟩ := t
  obtain ⟨n, rfl⟩ : ∃ n, v = n + 1 := ⟨v - 1, by simp only at ht; omega⟩
  exact before0_4 m c d n hv

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- What the obligation asks of a window that is never idle: its buffer at the stated contents. -/
theorem leaves0_0 (c : Dev nD) (t : Fin cfg0.N) : (dats m 0 c).leavesExact 0 t = owns (c : Thread nD τ) (st0_0 t) fullShare (iblk m c 0 t) := by
  unfold Dat.leavesExact; rw [live0_0 t, after0_0]
theorem leaves0_1 (c : Dev nD) (t : Fin cfg0.N) : (dats m 0 c).leavesExact 1 t = owns (c : Thread nD τ) (st0_1 t) fullShare (iblk m c 1 t) := by
  unfold Dat.leavesExact; rw [live0_1 t, after0_1]
theorem leaves0_2 (c : Dev nD) (t : Fin cfg0.N) : (dats m 0 c).leavesExact 2 t = owns (c : Thread nD τ) (st0_2 t) fullShare (iblk m c 2 t) := by
  unfold Dat.leavesExact; rw [live0_2 t, after0_2]
theorem leaves0_3 (c : Dev nD) (t : Fin cfg0.N) : (dats m 0 c).leavesExact 3 t = owns (c : Thread nD τ) (st0_3 t) fullShare (outTile (iblk m c 0 t) (iblk m c 1 t)) := by
  unfold Dat.leavesExact; rw [live0_3 t, after0_3]

/-- What it asks of the second result's window: at the first point (live) and at the last (idle, written back) the
    stated contents; at the points between (idle, not written back) what the body found. -/
theorem leaves0_4_first (c : Dev nD) (t : Fin cfg0.N) (h : t.val % 16 = 0) :
    (dats m 0 c).leavesExact 4 t = owns (c : Thread nD τ) (st0_4 t) fullShare (outRow (iblk m c 2 t0_0)) := by
  unfold Dat.leavesExact; rw [idle0_4 t, show decide (t.val % 16 ≠ 0) = false from decide_eq_false (by omega), after0_4]
theorem leaves0_4_last (c : Dev nD) (t : Fin cfg0.N) (h : t.val % 16 = 15) :
    (dats m 0 c).leavesExact 4 t = owns (c : Thread nD τ) (st0_4 t) fullShare (outRow (iblk m c 2 t0_0)) := by
  unfold Dat.leavesExact
  rw [idle0_4 t, show decide (t.val % 16 ≠ 0) = true from decide_eq_true (by omega), (flush0_4 t).mpr h, after0_4]
theorem leaves0_4_mid (c : Dev nD) (t : Fin cfg0.N) (h0 : t.val % 16 ≠ 0) (h15 : t.val % 16 ≠ 15) :
    (dats m 0 c).leavesExact 4 t = iprop(∃ d, owns (c : Thread nD τ) (st0_4 t) fullShare ((dats m 0 c).before 4 t d)) := by
  have hfl : (cfg0.win 4).flush t = false := by
    cases h : (cfg0.win 4).flush t with
    | false => rfl
    | true => exact absurd ((flush0_4 t).mp h) h15
  unfold Dat.leavesExact
  rw [idle0_4 t, show decide (t.val % 16 ≠ 0) = true from decide_eq_true h0, hfl]

set_option maxHeartbeats 800000 in
/-- The body at any point. At the first the branch is taken and both results are stored; at a later point the second
    result's buffer is handed back as found, which at the last point is known to be what the first point stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    leaves0_0, leaves0_1, leaves0_2, leaves0_3]
  have hN : t.val < 16 := lt_of_lt_of_eq t.isLt (show cfg0.N = 16 from N_0)
  by_cases h0 : t.val % 16 = 0
  · rw [leaves0_4_first m c t h0]
    have ht : t = t0_0 := Fin.ext (show t.val = 0 by omega)
    iintro ⟨HΦ, Ho, ⟨%d0, H0⟩, ⟨%d1, H1⟩, ⟨%d2, H2⟩, ⟨%d3, H3⟩, ⟨%d4, H4⟩⟩
    iapply (run_first c Set.univ (grid0.coords t) _ _ _ _ _ _ _ _ _ _ ((cond_iff t).mpr h0) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    rw [ht]
    iexact H4
  · by_cases h15 : t.val % 16 = 15
    · rw [leaves0_4_last m c t h15]
      iintro ⟨HΦ, Ho, ⟨%d0, H0⟩, ⟨%d1, H1⟩, ⟨%d2, H2⟩, ⟨%d3, H3⟩, ⟨%d4, H4⟩⟩
      rw [before0_4' m c t (by omega) d4]
      iapply (run_later c Set.univ (grid0.coords t) _ _ _ _ _ _ _ _ _ _ (fun h => h0 ((cond_iff t).mp h)) (iblk m c 0 t) (iblk m c 1 t) (iblk m c 2 t) (outRow (iblk m c 2 t0_0)) _)
      isplitl [H0]; · iexact H0
      isplitl [H1]; · iexact H1
      isplitl [H2]; · iexact H2
      isplitl [H3]; · iexists _; iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · rw [leaves0_4_mid m c t h0 h15]
      iintro ⟨HΦ, Ho, ⟨%d0, H0⟩, ⟨%d1, H1⟩, ⟨%d2, H2⟩, ⟨%d3, H3⟩, ⟨%d4, H4⟩⟩
      iapply (run_later c Set.univ (grid0.coords t) _ _ _ _ _ _ _ _ _ _ (fun h => h0 ((cond_iff t).mp h)) (iblk m c 0 t) (iblk m c 1 t) (iblk m c 2 t) ((dats m 0 c).before 4 t d4) _)
      isplitl [H0]; · iexact H0
      isplitl [H1]; · iexact H1
      isplitl [H2]; · iexact H2
      isplitl [H3]; · iexists _; iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of the program terminates, and
    every final state has every windowed array at what the write-backs of the proof data give it and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Gen

end
-- ==== Proof.LaunchIdeal.lean ====
/-
  The launch of the one kernel, point by point.

  The grid has 16 points (2 batches × 8 row tiles). At every point the body reads a 512-row tile of the first
  operand and the whole 4096-row slab of the second operand's batch, and overwrites the 512 × 4096 tile of the first
  result with a function of those two blocks alone. The second result, one row of 128 numbers, is stored at the first
  point only; its staging buffer is not touched at the fifteen later points and is written back once, after the last
  one. So what that buffer holds when it is written back is what the first point stored: the fifteen later points
  find it, one after the other, as the point before left it.

  This module states what each staging buffer holds after the body at each point, proves the body's two runs (the
  first point; every later point), and concludes the run of the whole program: every weakly fair execution terminates
  with each result array at the contents the write-backs give it and the arguments unchanged.
-/
import proofs.«130213_g55533927137529_cont_9to1_m_314_6_alg».proof.Proof.Gen.KernelIdeal.Frame
import proofs.«130213_g55533927137529_cont_9to1_m_314_6_alg».proof.Proof.Gen.KernelIdeal.Skeleton
import Idealize.ShloMosaic.Lib.Pipeline.Frame
import Idealize.ShloMosaic.Lib.Exec.Geometry

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The whole-buffer rectangles the body reads and writes through -/

/-- All of a 1 × 512 × 128 buffer, -/
abbrev rTile : Rect S1x512x128 := Rect.unit (s := S1x512x128) ![0, 0, 0] S1x512x128.size inb_S1x512x128_S1x512x128_0_0_0
/-- all of a 1 × 4096 × 128 buffer, -/
abbrev rSlab : Rect S1x4096x128 := Rect.unit (s := S1x4096x128) ![0, 0, 0] S1x4096x128.size inb_S1x4096x128_S1x4096x128_0_0_0
/-- all of a 1 × 512 × 4096 buffer, -/
abbrev rOut : Rect S1x512x4096 := Rect.unit (s := S1x512x4096) ![0, 0, 0] S1x512x4096.size inb_S1x512x4096_S1x512x4096_0_0_0
/-- all of a 1 × 128 buffer. -/
abbrev rRow : Rect S1x128 := Rect.unit (s := S1x128) ![0, 0] S1x128.size inb_S1x128_S1x128_0_0

/-! ## What the body leaves in the two output buffers -/

/-- The first result's buffer after the body: its one store, of the two input blocks. -/
def outTile (x0 : Vec F S1x512x128 .f32) (x1 : Vec F S1x4096x128 .f32) : Vec F S1x512x4096 .f32 :=
  View.canon [⟨rOut, k0_pay1 (View.ld x0 rTile) (View.ld x1 rSlab)⟩]

/-- The second result's buffer after the body of the first point: its one store, of the third input's block. -/
def outRow (x2 : Vec F S1x128 .f32) : Vec F S1x128 .f32 :=
  View.canon [⟨rRow, k0_pay2 (View.ld x2 rRow)⟩]

/-- A store through the whole-buffer rectangle covers the buffer. -/
theorem coverTile (p : Vec F S1x512x4096 .f32) (y : S1x512x4096.Idx) :
    ∃ pc ∈ ([⟨rOut, p⟩] : List (View.Piece (Elt F) S1x512x4096 .f32)), y ∈ pc.1.set :=
  View.cover_of_tiled [⟨rOut, p⟩] S1x512x4096.size (by rfl) y
theorem coverRow (p : Vec F S1x128 .f32) (y : S1x128.Idx) :
    ∃ pc ∈ ([⟨rRow, p⟩] : List (View.Piece (Elt F) S1x128 .f32)), y ∈ pc.1.set :=
  View.cover_of_tiled [⟨rRow, p⟩] S1x128.size (by rfl) y

/-! ## The branch: taken at the first point only -/

/-- The body's condition (batch 0 and row tile 0) holds at the first point and at no other. -/
theorem cond_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-! ## The body's two runs -/

set_option maxHeartbeats 2000000 in
/-- At the first point: from the three inputs' buffers at `x0`, `x1`, `x2` and the two outputs' at anything, the body
    runs to the inputs' buffers as they were, the first output's at `outTile x0 x1` and the second's at `outRow x2`. -/
theorem run_first (c : Dev nD) (E : Set ℕ) (i : grid0.Coords)
    (arg2 : Memref sig .tc .vmem S1x512x128 .f32) (harg2 : arg2.IsWhole) (arg3 : Memref sig .tc .vmem S1x4096x128 .f32) (harg3 : arg3.IsWhole)
    (arg4 : Memref sig .tc .vmem S1x128 .f32) (harg4 : arg4.IsWhole) (arg5 : Memref sig .tc .vmem S1x512x4096 .f32) (harg5 : arg5.IsWhole)
    (arg6 : Memref sig .tc .vmem S1x128 .f32) (harg6 : arg6.IsWhole) (hc : k0_cond1 i = 1#1)
    (x0 : Vec F S1x512x128 .f32) (x1 : Vec F S1x4096x128 .f32) (x2 : Vec F S1x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outTile x0 x1) ∗ owns (c : Thread nD τ) arg6 fullShare (outRow x2)) -∗ K ⟨⟩))
      ⊢ wp frame (wpE (defs₀ (F := F)) Variants.none c none) E (cc0__adj_kernel i arg2 harg2 arg3 harg3 arg4 harg4 arg5 harg5 arg6 harg6) K := by
  simp only [cc0__adj_kernel_eq_skeleton]; unfold cc0__adj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverTile _)
  iexists _; isplitr
  swap; · iexact H4
  ipureintro
  exact View.read_writes_eq_canon _ _ _ (coverRow _)

set_option maxHeartbeats 2000000 in
/-- At every later point: the same, but the second output's buffer, found at `y`, is handed back at `y`. -/
theorem run_later (c : Dev nD) (E : Set ℕ) (i : grid0.Coords)
    (arg2 : Memref sig .tc .vmem S1x512x128 .f32) (harg2 : arg2.IsWhole) (arg3 : Memref sig .tc .vmem S1x4096x128 .f32) (harg3 : arg3.IsWhole)
    (arg4 : Memref sig .tc .vmem S1x128 .f32) (harg4 : arg4.IsWhole) (arg5 : Memref sig .tc .vmem S1x512x4096 .f32) (harg5 : arg5.IsWhole)
    (arg6 : Memref sig .tc .vmem S1x128 .f32) (harg6 : arg6.IsWhole) (hc : ¬ k0_cond1 i = 1#1)
    (x0 : Vec F S1x512x128 .f32) (x1 : Vec F S1x4096x128 .f32) (x2 : Vec F S1x128 .f32) (y : Vec F S1x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare y
        ∗ (iprop(owns (c : Thread nD τ) arg2 fullShare x0 ∗ owns (c : Thread nD τ) arg3 fullShare x1 ∗ owns (c : Thread nD τ) arg4 fullShare x2
            ∗ owns (c : Thread nD τ) arg5 fullShare (outTile x0 x1) ∗ owns (c : Thread nD τ) arg6 fullShare y) -∗ K ⟨⟩))
      ⊢ wp frame (wpE (defs₀ (F := F)) Variants.none c none) E (cc0__adj_kernel i arg2 harg2 arg3 harg3 arg4 harg4 arg5 harg5 arg6 harg6) K := by
  simp only [cc0__adj_kernel_eq_skeleton]; unfold cc0__adj_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverTile _)
  iexists f4; isplitr; · ipureintro; rfl
  iexact H4

/-! ## The pipeline's proof data -/

/-- What each staging buffer holds after the body at point `t`: each input's its block; the first result's the tile
    computed from the point's two blocks; the second result's, at every point, what the FIRST point stored (the row
    computed from the third input's block there) — the later points leave it as they find it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outTile (iblk m c 0 t) (iblk m c 1 t)
    | ⟨4, _⟩ => outRow (iblk m c 2 t0_0)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outTile (iblk m c 0 t) (iblk m c 1 t) := by dsimp only [dats]
theorem after0_4 (c : Dev nD) (t : Fin cfg0.N) : (dats m 0 c).after 4 t = outRow (iblk m c 2 t0_0) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The second result's buffer, point by point -/

/-- Where the windows are idle: the inputs and the first result never; the second result at every point but the first. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem idle0_4 : ∀ t : Fin cfg0.N, cfg0.idle 4 (grid0.coords t) = decide (t.val % 16 ≠ 0) := by decide +kernel

/-- The second result's window is never fetched (it is an output). -/
theorem fetch0_4 (t : Fin cfg0.N) : (cfg0.win 4).fetch t = false := (cfg0.win 4).fetch_out rfl t

/-- At the first point the second result's window is live; at every later point it is idle. -/
theorem idle0_4_first (t : Fin cfg0.N) (h : t.val % 16 = 0) : cfg0.idle 4 (grid0.coords t) = false := by
  rw [idle0_4]; exact decide_eq_false (by omega)
theorem idle0_4_later (t : Fin cfg0.N) (h : t.val % 16 ≠ 0) : cfg0.idle 4 (grid0.coords t) = true := by
  rw [idle0_4]; exact decide_eq_true h

/-- Its block is written back at no point but the last. -/
theorem noflush0_4 (t : Fin cfg0.N) (h : t.val % 16 ≠ 15) : (cfg0.win 4).flush t = false :=
  Bool.eq_false_iff.mpr fun hf => h ((flush0_4 t).mp hf)

/-- One step back: at a point after the first the buffer holds what the point before left. -/
theorem before0_4_step (c : Dev nD) (d) (n : ℕ) (hn : n + 1 < cfg0.N) :
    (dats m 0 c).before 4 ⟨n + 1, hn⟩ d = (dats m 0 c).left 4 ⟨n, Nat.lt_of_succ_lt hn⟩ d := by
  have h16 : n + 1 < 16 := lt_of_lt_of_eq hn (show cfg0.N = 16 from N_0)
  have hfl : (cfg0.win 4).flush (⟨n, Nat.lt_of_succ_lt hn⟩ : Fin cfg0.N) = false :=
    noflush0_4 _ (by show ¬ (n % 16 = 15); omega)
  rw [(dats m 0 c).before_of_pos 4 ⟨n + 1, hn⟩ (Nat.succ_ne_zero n) (fetch0_4 _) d]
  exact if_neg fun h => Bool.false_ne_true (hfl.symm.trans h)

/-- At every point after the first, the second result's buffer holds what the first point stored: the point before
    either is the first (which stored it) or found it so and left it. -/
theorem before0_4 (c : Dev nD) (d) : ∀ (n : ℕ) (hn : n + 1 < cfg0.N),
    (dats m 0 c).before 4 ⟨n + 1, hn⟩ d = outRow (iblk m c 2 t0_0)
  | 0, hn => by
    rw [before0_4_step m c d 0 hn]
    unfold Dat.left
    rw [idle0_4_first ⟨0, Nat.lt_of_succ_lt hn⟩ rfl]
    dsimp only
    unfold Dat.kept
    rw [after0_4]
    rfl
  | n + 1, hn => by
    have h16 : n + 1 + 1 < 16 := lt_of_lt_of_eq hn (show cfg0.N = 16 from N_0)
    rw [before0_4_step m c d (n + 1) hn]
    unfold Dat.left
    rw [idle0_4_later ⟨n + 1, Nat.lt_of_succ_lt hn⟩ (by show ¬ ((n + 1) % 16 = 0); omega)]
    dsimp only
    exact before0_4 c d n (Nat.lt_of_succ_lt hn)

/-- The same, at a point named by its number. -/
theorem before0_4' (c : Dev nD) (t : Fin cfg0.N) (ht : t.val ≠ 0) (d) : (dats m 0 c).before 4 t d = outRow (iblk m c 2 t0_0) := by
  obtain ⟨v, hv⟩ := t
  obtain ⟨n, rfl⟩ : ∃ n, v = n + 1 := ⟨v - 1, by simp only at ht; omega⟩
  exact before0_4 m c d n hv

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- What the obligation asks of a window that is never idle: its buffer at the stated contents. -/
theorem leaves0_0 (c : Dev nD) (t : Fin cfg0.N) : (dats m 0 c).leavesExact 0 t = owns (c : Thread nD τ) (st0_0 t) fullShare (iblk m c 0 t) := by
  unfold Dat.leavesExact; rw [live0_0 t, after0_0]
theorem leaves0_1 (c : Dev nD) (t : Fin cfg0.N) : (dats m 0 c).leavesExact 1 t = owns (c : Thread nD τ) (st0_1 t) fullShare (iblk m c 1 t) := by
  unfold Dat.leavesExact; rw [live0_1 t, after0_1]
theorem leaves0_2 (c : Dev nD) (t : Fin cfg0.N) : (dats m 0 c).leavesExact 2 t = owns (c : Thread nD τ) (st0_2 t) fullShare (iblk m c 2 t) := by
  unfold Dat.leavesExact; rw [live0_2 t, after0_2]
theorem leaves0_3 (c : Dev nD) (t : Fin cfg0.N) : (dats m 0 c).leavesExact 3 t = owns (c : Thread nD τ) (st0_3 t) fullShare (outTile (iblk m c 0 t) (iblk m c 1 t)) := by
  unfold Dat.leavesExact; rw [live0_3 t, after0_3]

/-- What it asks of the second result's window: at the first point (live) and at the last (idle, written back) the
    stated contents; at the points between (idle, not written back) what the body found. -/
theorem leaves0_4_first (c : Dev nD) (t : Fin cfg0.N) (h : t.val % 16 = 0) :
    (dats m 0 c).leavesExact 4 t = owns (c : Thread nD τ) (st0_4 t) fullShare (outRow (iblk m c 2 t0_0)) := by
  unfold Dat.leavesExact; rw [idle0_4 t, show decide (t.val % 16 ≠ 0) = false from decide_eq_false (by omega), after0_4]
theorem leaves0_4_last (c : Dev nD) (t : Fin cfg0.N) (h : t.val % 16 = 15) :
    (dats m 0 c).leavesExact 4 t = owns (c : Thread nD τ) (st0_4 t) fullShare (outRow (iblk m c 2 t0_0)) := by
  unfold Dat.leavesExact
  rw [idle0_4 t, show decide (t.val % 16 ≠ 0) = true from decide_eq_true (by omega), (flush0_4 t).mpr h, after0_4]
theorem leaves0_4_mid (c : Dev nD) (t : Fin cfg0.N) (h0 : t.val % 16 ≠ 0) (h15 : t.val % 16 ≠ 15) :
    (dats m 0 c).leavesExact 4 t = iprop(∃ d, owns (c : Thread nD τ) (st0_4 t) fullShare ((dats m 0 c).before 4 t d)) := by
  have hfl : (cfg0.win 4).flush t = false := by
    cases h : (cfg0.win 4).flush t with
    | false => rfl
    | true => exact absurd ((flush0_4 t).mp h) h15
  unfold Dat.leavesExact
  rw [idle0_4 t, show decide (t.val % 16 ≠ 0) = true from decide_eq_true h0, hfl]

set_option maxHeartbeats 800000 in
/-- The body at any point. At the first the branch is taken and both results are stored; at a later point the second
    result's buffer is handed back as found, which at the last point is known to be what the first point stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    leaves0_0, leaves0_1, leaves0_2, leaves0_3]
  have hN : t.val < 16 := lt_of_lt_of_eq t.isLt (show cfg0.N = 16 from N_0)
  by_cases h0 : t.val % 16 = 0
  · rw [leaves0_4_first m c t h0]
    have ht : t = t0_0 := Fin.ext (show t.val = 0 by omega)
    iintro ⟨HΦ, Ho, ⟨%d0, H0⟩, ⟨%d1, H1⟩, ⟨%d2, H2⟩, ⟨%d3, H3⟩, ⟨%d4, H4⟩⟩
    iapply (run_first c Set.univ (grid0.coords t) _ _ _ _ _ _ _ _ _ _ ((cond_iff t).mpr h0) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    rw [ht]
    iexact H4
  · by_cases h15 : t.val % 16 = 15
    · rw [leaves0_4_last m c t h15]
      iintro ⟨HΦ, Ho, ⟨%d0, H0⟩, ⟨%d1, H1⟩, ⟨%d2, H2⟩, ⟨%d3, H3⟩, ⟨%d4, H4⟩⟩
      rw [before0_4' m c t (by omega) d4]
      iapply (run_later c Set.univ (grid0.coords t) _ _ _ _ _ _ _ _ _ _ (fun h => h0 ((cond_iff t).mp h)) (iblk m c 0 t) (iblk m c 1 t) (iblk m c 2 t) (outRow (iblk m c 2 t0_0)) _)
      isplitl [H0]; · iexact H0
      isplitl [H1]; · iexact H1
      isplitl [H2]; · iexact H2
      isplitl [H3]; · iexists _; iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · rw [leaves0_4_mid m c t h0 h15]
      iintro ⟨HΦ, Ho, ⟨%d0, H0⟩, ⟨%d1, H1⟩, ⟨%d2, H2⟩, ⟨%d3, H3⟩, ⟨%d4, H4⟩⟩
      iapply (run_later c Set.univ (grid0.coords t) _ _ _ _ _ _ _ _ _ _ (fun h => h0 ((cond_iff t).mp h)) (iblk m c 0 t) (iblk m c 1 t) (iblk m c 2 t) ((dats m 0 c).before 4 t d4) _)
      isplitl [H0]; · iexact H0
      isplitl [H1]; · iexact H1
      isplitl [H2]; · iexact H2
      isplitl [H3]; · iexists _; iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of the program terminates, and
    every final state has every windowed array at what the write-backs of the proof data give it and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Gen

end
-- ==== Proof.Sigmoid.lean ====
/-
  The scalar mathematics of the certificate, on the extended reals.

  Two identities carry the whole comparison. For a real `s`,
      1/2 · tanh (s/2) + 1/2 = 1 / (1 + e^(-s)),
  the logistic function written through the hyperbolic tangent; and for a positive real `σ`,
      σ^(1/2) · σ^(1/2) = σ.
  A third fact moves the factor 1/2 out of a finite sum of products of reals: Σ (aₖ · 1/2) · bₖ = 1/2 · Σ aₖ · bₖ.
  All three need their arguments to be real numbers (on the extended reals a product does not distribute over a sum
  at the infinities), which is where the finiteness of the inputs is used.
-/
import Idealize.ShloMosaic.PureOps.Ideal
import Idealize.ShloMosaic.PureOps.Ideal.Laws

noncomputable section

namespace Cert.Sigmoid

open Idealize.ShloMosaic

/-! ## The three float words the programs spell -/

/-- The word of `0.5` denotes the real 1/2. -/
theorem ofBits_half : Ideal.ofBits .f32 0x3F000000#32 = ((1 / 2 : ℝ) : EReal) := by
  simp [Ideal.ofBits, Ideal.ieee, -EReal.coe_mul]; norm_num

/-- The word of `1.0` denotes 1. -/
theorem ofBits_one : Ideal.ofBits .f32 0x3F800000#32 = ((1 : ℝ) : EReal) := by
  simp [Ideal.ofBits, Ideal.ieee, -EReal.coe_mul]; norm_num

/-! ## Sums of reals inside the extended reals -/

/-- The coercion of the reals commutes with finite sums. -/
theorem coe_sum {K : Type} (s : Finset K) (f : K → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-! ## The logistic function through the hyperbolic tangent -/

/-- On the reals, `1/2 · tanh (1/2 · s) + 1/2 = (1 + e^(-s))⁻¹`: with `u = e^(s/2)`, `v = e^(-s/2)`, `u · v = 1`, the left side is
    `u / (u + v)` and the right side `1 / (1 + v²)`. -/
theorem half_tanh_half (s : ℝ) : 1 / 2 * Real.tanh (1 / 2 * s) + 1 / 2 = (1 + Real.exp (-s))⁻¹ := by
  rw [Real.tanh_eq_sinh_div_cosh, Real.sinh_eq, Real.cosh_eq]
  have h1 : Real.exp (-s) = Real.exp (-(1 / 2 * s)) * Real.exp (-(1 / 2 * s)) := by
    rw [← Real.exp_add]; congr 1; ring
  have h2 : Real.exp (1 / 2 * s) * Real.exp (-(1 / 2 * s)) = 1 := by
    rw [← Real.exp_add]; simp
  have hu : 0 < Real.exp (1 / 2 * s) := Real.exp_pos _
  have hv : 0 < Real.exp (-(1 / 2 * s)) := Real.exp_pos _
  rw [h1]
  generalize Real.exp (1 / 2 * s) = u at *
  generalize Real.exp (-(1 / 2 * s)) = v at *
  have huv : u + v ≠ 0 := by positivity
  have hvv : 1 + v * v ≠ 0 := by positivity
  field_simp
  nlinarith [h2, hu, hv]

/-- One entry of the first result, as the kernel computes it and as the reference does: for real `a k`, `b k`,
    `1/2 · tanh (Σ (aₖ · 1/2) · bₖ) + 1/2` is the logistic function of `Σ aₖ · bₖ`. -/
theorem adj_entry {K : Type} [Fintype K] (a b : K → ℝ) :
    Ideal.ofBits .f32 0x3F000000#32
        * Ideal.tanh (∑ k, ((a k : EReal) * Ideal.ofBits .f32 0x3F000000#32) * (b k : EReal))
      + Ideal.ofBits .f32 0x3F000000#32
    = Ideal.div (Ideal.ofBits .f32 0x3F800000#32)
        (Ideal.ofBits .f32 0x3F800000#32 + Ideal.exp (-(∑ k, (a k : EReal) * (b k : EReal)))) := by
  have hl : ∑ k, ((a k : EReal) * Ideal.ofBits .f32 0x3F000000#32) * (b k : EReal)
      = ((1 / 2 * ∑ k, a k * b k : ℝ) : EReal) := by
    rw [Finset.mul_sum, ← coe_sum]
    refine Finset.sum_congr rfl fun k _ => ?_
    rw [ofBits_half, ← EReal.coe_mul, ← EReal.coe_mul]; congr 1; ring
  have hr : ∑ k, (a k : EReal) * (b k : EReal) = ((∑ k, a k * b k : ℝ) : EReal) := by
    rw [← coe_sum]; exact Finset.sum_congr rfl fun k _ => (EReal.coe_mul _ _).symm
  rw [hl, hr, ofBits_half, ofBits_one, Ideal.tanh_coe, ← EReal.coe_neg, Ideal.exp_coe,
    ← EReal.coe_mul, ← EReal.coe_add, ← EReal.coe_add,
    Ideal.div_coe (ne_of_gt (by positivity : (0 : ℝ) < 1 + Real.exp (-∑ k, a k * b k))), ← EReal.coe_mul, half_tanh_half]
  congr 1; rw [one_mul, one_div]

/-! ## The square of a square root -/

/-- One entry of the second result as the reference computes it — the logistic function of a real `x`, raised to the
    power 1/2 and multiplied by itself — is the logistic function of `x`, which is what the kernel stores. -/
theorem rk_entry (x : ℝ) :
    Ideal.pow (Ideal.div (Ideal.ofBits .f32 0x3F800000#32) (Ideal.ofBits .f32 0x3F800000#32 + Ideal.exp (-(x : EReal))))
        (Ideal.ofBits .f32 0x3F000000#32)
      * Ideal.pow (Ideal.div (Ideal.ofBits .f32 0x3F800000#32) (Ideal.ofBits .f32 0x3F800000#32 + Ideal.exp (-(x : EReal))))
        (Ideal.ofBits .f32 0x3F000000#32)
    = Ideal.logistic (x : EReal) := by
  have hpos : (0 : ℝ) < (1 + Real.exp (-x))⁻¹ := by positivity
  have hσ : Ideal.div (Ideal.ofBits .f32 0x3F800000#32) (Ideal.ofBits .f32 0x3F800000#32 + Ideal.exp (-(x : EReal)))
      = (((1 + Real.exp (-x))⁻¹ : ℝ) : EReal) := by
    rw [ofBits_one, ← Ideal.logistic_coe]; rfl
  rw [hσ, ofBits_half, Ideal.pow_coe_coe, Ideal.logistic_coe, ← EReal.coe_mul]
  congr 1
  show Real.rpow _ _ * Real.rpow _ _ = _
  rw [Real.rpow_eq_pow, ← Real.rpow_add hpos]
  norm_num

/-! ## The two results as functions of the whole argument arrays

The first result has one entry per batch `b`, row `n` of the first operand and row `m` of the second: it depends on row
`(b, n)` of the first operand and row `(b, m)` of the second, through the sum over the 128 columns of their products. -/

/-- The operands' shape, the first result's and the second's. -/
abbrev SZ : Shape := ⟨3, ![2, 4096, 128]⟩
abbrev SA : Shape := ⟨3, ![2, 4096, 4096]⟩
abbrev SR : Shape := ⟨2, ![1, 128]⟩

/-- Entry `(b, n, m)` of the first result reads the first operand at `(b, n, k)` -/
abbrev lrow (i : SA.Idx) (k : Fin 128) : SZ.Idx := fun a => match a with
  | ⟨0, _⟩ => ⟨(i 0).val, (i 0).isLt⟩
  | ⟨1, _⟩ => ⟨(i 1).val, (i 1).isLt⟩
  | ⟨2, _⟩ => ⟨k.val, k.isLt⟩
/-- and the second operand at `(b, m, k)`. -/
abbrev rrow (i : SA.Idx) (k : Fin 128) : SZ.Idx := fun a => match a with
  | ⟨0, _⟩ => ⟨(i 0).val, (i 0).isLt⟩
  | ⟨1, _⟩ => ⟨(i 2).val, (i 2).isLt⟩
  | ⟨2, _⟩ => ⟨k.val, k.isLt⟩

/-- The first result as the kernel computes it: half the hyperbolic tangent of the sum of the halved products, plus a half. -/
def adjK (z1 z2 : SZ.Idx → EReal) : SA.Idx → EReal := fun i =>
  Ideal.ofBits .f32 0x3F000000#32
      * Ideal.tanh (∑ k : Fin 128, (z1 (lrow i k) * Ideal.ofBits .f32 0x3F000000#32) * z2 (rrow i k))
    + Ideal.ofBits .f32 0x3F000000#32

/-- The first result as the reference computes it: one over one plus the exponential of minus the sum of products. -/
def adjR (z1 z2 : SZ.Idx → EReal) : SA.Idx → EReal := fun i =>
  Ideal.div (Ideal.ofBits .f32 0x3F800000#32)
    (Ideal.ofBits .f32 0x3F800000#32 + Ideal.exp (-(∑ k : Fin 128, z1 (lrow i k) * z2 (rrow i k))))

/-- On operands whose entries are all real numbers the two are one function. -/
theorem adjK_eq_adjR (z1 z2 : SZ.Idx → EReal) (h1 : ∀ i, ∃ r : ℝ, z1 i = (r : EReal)) (h2 : ∀ i, ∃ r : ℝ, z2 i = (r : EReal)) :
    adjK z1 z2 = adjR z1 z2 := by
  choose a ha using h1
  choose b hb using h2
  funext i
  simp only [adjK, adjR, ha, hb]
  exact adj_entry (fun k => a (lrow i k)) (fun k => b (rrow i k))

/-- The second result as the kernel computes it: the logistic function, entry by entry. -/
def rkK (x : SR.Idx → EReal) : SR.Idx → EReal := fun j => Ideal.logistic (x j)

/-- The second result as the reference computes it: the logistic function to the power 1/2, times itself. -/
def rkR (x : SR.Idx → EReal) : SR.Idx → EReal := fun j =>
  Ideal.pow (Ideal.div (Ideal.ofBits .f32 0x3F800000#32) (Ideal.ofBits .f32 0x3F800000#32 + Ideal.exp (-(x j))))
      (Ideal.ofBits .f32 0x3F000000#32)
    * Ideal.pow (Ideal.div (Ideal.ofBits .f32 0x3F800000#32) (Ideal.ofBits .f32 0x3F800000#32 + Ideal.exp (-(x j))))
      (Ideal.ofBits .f32 0x3F000000#32)

/-- On an argument whose entries are all real numbers the two are one function. -/
theorem rkR_eq_rkK (x : SR.Idx → EReal) (h : ∀ j, ∃ r : ℝ, x j = (r : EReal)) : rkR x = rkK x := by
  choose a ha using h
  funext j
  simp only [rkR, rkK, ha]
  exact rk_entry (a j)

end Cert.Sigmoid

end
-- ==== Proof.KernelValue.lean ====
/-
  What the idealized kernel leaves in its two result arrays, as functions of the whole argument arrays.

  Grid point `t` = (batch `b`, row tile `i`) writes back the 512 × 4096 tile `(b, 512·i ‥ 512·i + 511, all)` of the
  first result. Entry `(p, q)` of that tile is computed from row `p` of the point's tile of the first operand — row
  `512·i + p` of batch `b` — and row `q` of batch `b` of the second operand: the matrix product of the halved tile with
  the transposed slab is, entry by entry, the sum over the 128 columns of the products. The sixteen tiles fill the
  array, so the array ends as one function of the operands (`Sigmoid.adjK`).

  The second result is written back once, after the last point, from a buffer that holds what the first point stored:
  the logistic function of the third argument, entry by entry (`Sigmoid.rkK`).
-/
import proofs.«130213_g55533927137529_cont_9to1_m_314_6_alg».proof.Proof.LaunchIdeal
import proofs.«130213_g55533927137529_cont_9to1_m_314_6_alg».proof.Proof.Sigmoid
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Cert.Sigmoid (adjK rkK lrow rrow)

variable (m : (ℓ : Loc nD τ sig) → Buf (Elt Ideal) ℓ) (ρ : Dev nD → PrngReg)

/-! ## The body's arithmetic at an index -/

/-- Which operand entries the body's matrix product reads: output `(r, c)` and column `k` read the left factor at
    `(r, k)` and the right factor at `(c, k)`. -/
theorem lhs_row (j : S512x4096.Idx) (q : dot_S512x128_S4096x128_S512x4096_1_1_0_0_n_n.contr.Idx) : (dot_S512x128_S4096x128_S512x4096_1_1_0_0_n_n.lhsIdx j q 0).val = (j 0).val := by
  unfold DotDims.lhsIdx
  rw [dif_neg (show ¬(0 : Fin S512x128.rank) ∈ dot_S512x128_S4096x128_S512x4096_1_1_0_0_n_n.lhsBatch by decide),
    dif_pos (show (0 : Fin S512x128.rank) ∈ dot_S512x128_S4096x128_S512x4096_1_1_0_0_n_n.lhsNonContracting by decide)]
  rfl
theorem lhs_col (j : S512x4096.Idx) (q : dot_S512x128_S4096x128_S512x4096_1_1_0_0_n_n.contr.Idx) : (dot_S512x128_S4096x128_S512x4096_1_1_0_0_n_n.lhsIdx j q 1).val = (q ⟨0, by decide⟩).val :=
  dot_S512x128_S4096x128_S512x4096_1_1_0_0_n_n.lhsIdx_val_of_single rfl j q
theorem rhs_row (j : S512x4096.Idx) (q : dot_S512x128_S4096x128_S512x4096_1_1_0_0_n_n.contr.Idx) : (dot_S512x128_S4096x128_S512x4096_1_1_0_0_n_n.rhsIdx j q 0).val = (j 1).val := by
  unfold DotDims.rhsIdx
  rw [dif_neg (show ¬(0 : Fin S4096x128.rank) ∈ dot_S512x128_S4096x128_S512x4096_1_1_0_0_n_n.rhsBatch by decide),
    dif_pos (show (0 : Fin S4096x128.rank) ∈ dot_S512x128_S4096x128_S512x4096_1_1_0_0_n_n.rhsNonContracting by decide)]
  rfl
theorem rhs_col (j : S512x4096.Idx) (q : dot_S512x128_S4096x128_S512x4096_1_1_0_0_n_n.contr.Idx) : (dot_S512x128_S4096x128_S512x4096_1_1_0_0_n_n.rhsIdx j q 1).val = (q ⟨0, by decide⟩).val :=
  dot_S512x128_S4096x128_S512x4096_1_1_0_0_n_n.rhsIdx_val_of_single rfl j q

/-- The body's matrix product at `(p, q)`: the sum over the 128 columns of row `p` of the left factor times row `q` of
    the right factor (both factors are contracted along their second axis). -/
theorem dot_apply (l : FVec Ideal S512x128 .f32) (r : FVec Ideal S4096x128 .f32) (p : Fin 512) (q : Fin 4096) :
    matmul dot_S512x128_S4096x128_S512x4096_1_1_0_0_n_n none l r (constant S512x4096 .f32 0x00000000#32) (ix2 p q)
      = ∑ k : Fin 128, l (ix2 p k) * r (ix2 q k) := by
  simp only [matmul]
  rw [Ideal.matmul_constant_zero_apply, ← Equiv.sum_comp (contrEquiv1 dot_S512x128_S4096x128_S512x4096_1_1_0_0_n_n 128 rfl rfl).symm]
  refine Finset.sum_congr rfl fun k _ => ?_
  have hk := contrEquiv1_symm_val dot_S512x128_S4096x128_S512x4096_1_1_0_0_n_n 128 rfl rfl k
  have el : dot_S512x128_S4096x128_S512x4096_1_1_0_0_n_n.lhsIdx (ix2 p q) ((contrEquiv1 dot_S512x128_S4096x128_S512x4096_1_1_0_0_n_n 128 rfl rfl).symm k) = ix2 p k := funext fun a => Fin.ext (by
    match a with
    | ⟨0, _⟩ => exact lhs_row _ _
    | ⟨1, _⟩ => exact (lhs_col _ _).trans hk)
  have er : dot_S512x128_S4096x128_S512x4096_1_1_0_0_n_n.rhsIdx (ix2 p q) ((contrEquiv1 dot_S512x128_S4096x128_S512x4096_1_1_0_0_n_n 128 rfl rfl).symm k) = ix2 q k := funext fun a => Fin.ext (by
    match a with
    | ⟨0, _⟩ => exact rhs_row _ _
    | ⟨1, _⟩ => exact (rhs_col _ _).trans hk)
  rw [el, er]

/-- The first result's stored tile at `(p, q)`, from the two loaded blocks: half the hyperbolic tangent of the sum over
    the columns of (row `p` of the tile, halved) times (row `q` of the slab), plus a half. -/
theorem tile_apply (x0 : Vec Ideal S1x512x128 .f32) (x1 : Vec Ideal S1x4096x128 .f32) (u : Fin 1) (p : Fin 512) (q : Fin 4096) :
    k0_pay1 x0 x1 (ix3 u p q)
      = Ideal.ofBits .f32 0x3F000000#32
          * Ideal.tanh (∑ k : Fin 128, (x0 (ix3 (0 : Fin 1) p k) * Ideal.ofBits .f32 0x3F000000#32) * x1 (ix3 (0 : Fin 1) q k))
        + Ideal.ofBits .f32 0x3F000000#32 := by
  unfold k0_pay1
  refine (shapeCast_ab_1ab_apply _ _ u p q).trans ?_
  show Ideal.ofBits .f32 0x3F000000#32
      * Ideal.tanh (matmul (F := Ideal) dot_S512x128_S4096x128_S512x4096_1_1_0_0_n_n none
          (mulf (F := Ideal) (shapeCast S512x128 x0 shapeCasts_S1x512x128_S512x128) (broadcast S512x128 (Scalar.ofBits (F := Ideal) .f32 0x3F000000#32)))
          (shapeCast S4096x128 x1 shapeCasts_S1x4096x128_S4096x128) (constant (F := Ideal) S512x4096 .f32 0x00000000#32) (ix2 p q))
      + Ideal.ofBits .f32 0x3F000000#32 = _
  rw [dot_apply]
  refine congrArg (fun s => Ideal.ofBits .f32 0x3F000000#32 * Ideal.tanh s + Ideal.ofBits .f32 0x3F000000#32)
    (Finset.sum_congr rfl fun k _ => ?_)
  have e0 : shapeCast S512x128 x0 shapeCasts_S1x512x128_S512x128 (ix2 p k) = x0 (ix3 (0 : Fin 1) p k) :=
    shapeCast_1ab_ab_apply x0 _ p k
  have e1 : shapeCast S4096x128 x1 shapeCasts_S1x4096x128_S4096x128 (ix2 q k) = x1 (ix3 (0 : Fin 1) q k) :=
    shapeCast_1ab_ab_apply x1 _ q k
  show shapeCast S512x128 x0 shapeCasts_S1x512x128_S512x128 (ix2 p k) * Ideal.ofBits .f32 0x3F000000#32
      * shapeCast S4096x128 x1 shapeCasts_S1x4096x128_S4096x128 (ix2 q k) = _
  rw [e0, e1]

/-! ## The index maps, decided over the sixteen points -/

theorem hz3 : (![0, 0, 0] : Fin 3 → Nat) = fun _ => 0 := funext fun a => by fin_cases a <;> rfl
theorem hz2 : (![0, 0] : Fin 2 → Nat) = fun _ => 0 := funext fun a => by fin_cases a <;> rfl

/-- The first operand's tile moves with the first result's tile; the second operand's slab follows its batch; the third
    argument and the second result are one block each. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_3.index t (2 : Fin 3) = 0 ∧ win0_3.index t (0 : Fin 3) ≤ 1 ∧ win0_3.index t (1 : Fin 3) ≤ 7
    ∧ win0_2.index t (0 : Fin 2) = 0 ∧ win0_2.index t (1 : Fin 2) = 0
    ∧ win0_4.index t (0 : Fin 2) = 0 ∧ win0_4.index t (1 : Fin 2) = 0 :=
  (by decide +kernel : ∀ t : Fin grid0.N, _)

/-- Every tile of the first result is some point's. -/
theorem idx_onto : ∀ (q0 : Fin 2) (q1 : Fin 8), ∃ t : Fin cfg0.N, win0_3.index t = ![q0.val, q1.val, 0] :=
  (by decide +kernel : ∀ (q0 : Fin 2) (q1 : Fin 8), ∃ t : Fin grid0.N, win0_3.index t = ![q0.val, q1.val, 0])

/-! ## The first result -/

/-- What point `t` writes back is its tile of `adjK` of the two operands. -/
theorem flushed3_eq (c : Dev nD) (t : Fin cfg0.N) :
    (dats m 0 c).flushed 3 t = ((cfg0.win 3).blk t).view.read (Elt Ideal) (adjK (V m c main_arg0) (V m c main_arg1)) := by
  show (cfg0.win 3).cut (grid0.coords t) ((dats m 0 c).after 3 t) = _
  rw [after0_3]
  unfold outTile
  rw [View.canon_unit_zero hz3]
  simp only [View.ld_unit_zero (S := S1x512x128) hz3, View.ld_unit_zero (S := S1x4096x128) hz3]
  obtain ⟨e0, e1, e2, e3, e4, e5, e6, e7, e8, -, -, -, -⟩ := idx_facts t
  funext j
  obtain ⟨u, p, q, rfl⟩ : ∃ (u : Fin 1) (p : Fin 512) (q : Fin 4096), j = ix3 u p q := ⟨j 0, j 1, j 2, eq_ix3 j⟩
  show k0_pay1 (iblk m c 0 t) (iblk m c 1 t) (ix3 u p q)
    = adjK (V m c main_arg0) (V m c main_arg1) (((cfg0.win 3).blk t).view.emb (ix3 u p q))
  rw [tile_apply]
  unfold adjK
  refine congrArg (fun s => Ideal.ofBits .f32 0x3F000000#32 * Ideal.tanh s + Ideal.ofBits .f32 0x3F000000#32)
    (Finset.sum_congr rfl fun k _ => ?_)
  have hu : u.val = 0 := by have := u.isLt; omega
  have hp : p.val < 512 := p.isLt
  have hq : q.val < 4096 := q.isLt
  have h0 : ((cfg0.win 0).blk t).view.emb (ix3 (0 : Fin 1) p k) = lrow (((cfg0.win 3).blk t).view.emb (ix3 u p q)) k := by
    funext a; apply Fin.ext
    match a with
    | ⟨0, _⟩ => show win0_0.index t (0 : Fin 3) * 1 + 1 * 0 = win0_3.index t (0 : Fin 3) * 1 + 1 * u.val; omega
    | ⟨1, _⟩ => show win0_0.index t (1 : Fin 3) * 512 + 1 * p.val = win0_3.index t (1 : Fin 3) * 512 + 1 * p.val; omega
    | ⟨2, _⟩ => show win0_0.index t (2 : Fin 3) * 128 + 1 * k.val = k.val; omega
  have h1 : ((cfg0.win 1).blk t).view.emb (ix3 (0 : Fin 1) q k) = rrow (((cfg0.win 3).blk t).view.emb (ix3 u p q)) k := by
    funext a; apply Fin.ext
    match a with
    | ⟨0, _⟩ => show win0_1.index t (0 : Fin 3) * 1 + 1 * 0 = win0_3.index t (0 : Fin 3) * 1 + 1 * u.val; omega
    | ⟨1, _⟩ => show win0_1.index t (1 : Fin 3) * 4096 + 1 * q.val = win0_3.index t (2 : Fin 3) * 4096 + 1 * q.val; omega
    | ⟨2, _⟩ => show win0_1.index t (2 : Fin 3) * 128 + 1 * k.val = k.val; omega
  have e0 : iblk m c 0 t (ix3 (0 : Fin 1) p k)
      = V m c main_arg0 (lrow (((cfg0.win 3).blk t).view.emb (ix3 u p q)) k) := congrArg (V m c main_arg0) h0
  have e1 : iblk m c 1 t (ix3 (0 : Fin 1) q k)
      = V m c main_arg1 (rrow (((cfg0.win 3).blk t).view.emb (ix3 u p q)) k) := congrArg (V m c main_arg1) h1
  rw [e0, e1]

/-- An index of the first result is in point `t`'s tile iff each coordinate is in the tile's range on its axis. -/
theorem mem_blk3 (t : Fin cfg0.N) (i : S2x4096x4096.Idx) :
    i ∈ ((cfg0.win 3).blk t).view.set ↔ ∀ a : Fin 3, win0_3.index t a * S1x512x4096.size a ≤ (i a).val
      ∧ (i a).val < win0_3.index t a * S1x512x4096.size a + S1x512x4096.size a := by
  show i ∈ ((View.whole main_v0_0).slice (win0_3.rect t)).set ↔ _
  rw [View.set_slice_whole, Rect.mem_set_unit]
  exact Iff.rfl

/-- The sixteen tiles fill the first result. -/
theorem cover3 (i : S2x4096x4096.Idx) : ∃ t : Fin cfg0.N, (cfg0.win 3).flush t = true ∧ i ∈ ((cfg0.win 3).blk t).view.set := by
  have hi0 : (i 0).val < 2 := (i 0).isLt
  have hi1 : (i 1).val < 4096 := (i 1).isLt
  have hi2 : (i 2).val < 4096 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 4096 ≤ (i 2).val ∧ (i 2).val < win0_3.index t (2 : Fin 3) * 4096 + 4096; omega

/-- The first result after the run. -/
theorem final3 (c : Dev nD) : (dats m 0 c).arrAt 3 cfg0.N = adjK (V m c main_arg0) (V m c main_arg1) :=
  (dats m 0 c).arrAt_eq_of_cover 3 (adjK (V m c main_arg0) (V m c main_arg1)) (fun t _ => flushed3_eq m c t) cover3

/-! ## The second result -/

/-- What a write-back of the second result writes is `rkK` of the third argument, whole. -/
theorem flushed4_eq (c : Dev nD) (t : Fin cfg0.N) :
    (dats m 0 c).flushed 4 t = ((cfg0.win 4).blk t).view.read (Elt Ideal) (rkK (V m c main_arg2)) := by
  show (cfg0.win 4).cut (grid0.coords t) ((dats m 0 c).after 4 t) = _
  rw [after0_4]
  unfold outRow
  rw [View.canon_unit_zero hz2]
  simp only [View.ld_unit_zero (S := S1x128) hz2]
  obtain ⟨-, -, -, -, -, -, -, -, -, -, -, e4a, e4b⟩ := idx_facts t
  obtain ⟨-, -, -, -, -, -, -, -, -, e2a, e2b, -, -⟩ := idx_facts t0_0
  funext j
  show Ideal.logistic (V m c main_arg2 (((cfg0.win 2).blk t0_0).view.emb j))
    = Ideal.logistic (V m c main_arg2 (((cfg0.win 4).blk t).view.emb j))
  have h : ((cfg0.win 2).blk t0_0).view.emb j = ((cfg0.win 4).blk t).view.emb j := by
    funext a; apply Fin.ext
    match a with
    | ⟨0, _⟩ => show win0_2.index t0_0 (0 : Fin 2) * 1 + 1 * (j 0).val = win0_4.index t (0 : Fin 2) * 1 + 1 * (j 0).val; omega
    | ⟨1, _⟩ => show win0_2.index t0_0 (1 : Fin 2) * 128 + 1 * (j 1).val = win0_4.index t (1 : Fin 2) * 128 + 1 * (j 1).val; omega
  rw [h]

theorem mem_blk4 (t : Fin cfg0.N) (i : S1x128.Idx) :
    i ∈ ((cfg0.win 4).blk t).view.set ↔ ∀ a : Fin 2, win0_4.index t a * S1x128.size a ≤ (i a).val
      ∧ (i a).val < win0_4.index t a * S1x128.size a + S1x128.size a := by
  show i ∈ ((View.whole main_v0_1).slice (win0_4.rect t)).set ↔ _
  rw [View.set_slice_whole, Rect.mem_set_unit]
  exact Iff.rfl

/-- The one write-back, after the last point, covers the second result. -/
theorem cover4 (i : S1x128.Idx) : ∃ t : Fin cfg0.N, (cfg0.win 4).flush t = true ∧ i ∈ ((cfg0.win 4).blk t).view.set := by
  have hi0 : (i 0).val < 1 := (i 0).isLt
  have hi1 : (i 1).val < 128 := (i 1).isLt
  obtain ⟨-, -, -, -, -, -, -, -, -, -, -, e4a, e4b⟩ := idx_facts t0_15
  refine ⟨t0_15, (flush0_4 t0_15).mpr rfl, ?_⟩
  rw [mem_blk4]
  intro a
  match a with
  | ⟨0, _⟩ => show win0_4.index t0_15 (0 : Fin 2) * 1 ≤ (i 0).val ∧ (i 0).val < win0_4.index t0_15 (0 : Fin 2) * 1 + 1; omega
  | ⟨1, _⟩ => show win0_4.index t0_15 (1 : Fin 2) * 128 ≤ (i 1).val ∧ (i 1).val < win0_4.index t0_15 (1 : Fin 2) * 128 + 128; omega

/-- The second result after the run. -/
theorem final4 (c : Dev nD) : (dats m 0 c).arrAt 4 cfg0.N = rkK (V m c main_arg2) :=
  (dats m 0 c).arrAt_eq_of_cover 4 (rkK (V m c main_arg2)) (fun t _ => flushed4_eq m c t) cover4

/-! ## The run, read -/

/-- Every weakly fair execution of the idealized kernel's program terminates with the first result at `adjK` of the
    first two arguments, the second at `rkK` of the third, and the arguments unchanged. -/
theorem run : θ_run defs (onTc (τ := τ) (main (F := Ideal))) ⟨m, fun _ => 0, ρ⟩ fun r => ∀ c : Dev nD,
      r.2.mem ((c.tc : Thread nD τ).loc main_v0_0) = adjK (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v0_1) = rkK (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    have k0 : r.2.mem ((c.tc : Thread nD τ).loc main_arg0) = m ((c.tc : Thread nD τ).loc main_arg0) :=
      ((h c).1 0).trans (((dats m 0 c).arrAt_in 0 rfl _).trans ((A_eq m c 0).trans (V_main_arg0 m c)))
    have k1 : r.2.mem ((c.tc : Thread nD τ).loc main_arg1) = m ((c.tc : Thread nD τ).loc main_arg1) :=
      ((h c).1 1).trans (((dats m 0 c).arrAt_in 1 rfl _).trans ((A_eq m c 1).trans (V_main_arg1 m c)))
    have k2 : r.2.mem ((c.tc : Thread nD τ).loc main_arg2) = m ((c.tc : Thread nD τ).loc main_arg2) :=
      ((h c).1 2).trans (((dats m 0 c).arrAt_in 2 rfl _).trans ((A_eq m c 2).trans (V_main_arg2 m c)))
    ⟨((h c).1 3).trans (final3 m c), k0, k1, ((h c).1 4).trans (final4 m c), k0, k1, k2⟩)
    (run_main m ρ)

end Cert.KernelIdeal.KValue

end
-- ==== Proof.RefValue.lean ====
/-
  The reference's two results at the ideal instance, as functions of the whole argument arrays.

  Read one operation at a time, the first result's entry `(b, n, m)` is one over one plus the exponential of minus the
  batched matrix product's entry — the sum over the 128 columns of row `(b, n)` of the first operand times row `(b, m)`
  of the second —, which is `Sigmoid.adjR`; the second result's entry is the logistic expression of the third
  argument's entry, raised to the power 1/2 and multiplied by itself, which is `Sigmoid.rkR`.
-/
import proofs.«130213_g55533927137529_cont_9to1_m_314_6_alg».proof.Defs
import proofs.«130213_g55533927137529_cont_9to1_m_314_6_alg».proof.Proof.Gen.ReferenceIdeal.Run
import proofs.«130213_g55533927137529_cont_9to1_m_314_6_alg».proof.Proof.Gen.ReferenceIdeal.Read
import proofs.«130213_g55533927137529_cont_9to1_m_314_6_alg».proof.Proof.Sigmoid

noncomputable section

namespace Cert.ReferenceIdeal.RefValue

open Cert.ReferenceIdeal Cert.ReferenceIdeal.Gen Cert.ReferenceIdeal.Read Idealize.ShloMosaic Idealize.SL.Sem
open Cert.Sigmoid (adjR rkR)

/-- The first result: the reference's chain of operations, index by index, is `adjR`. -/
theorem adj_eq (x0 x1 : (⟨S2x4096x128, .f32⟩ : BufTy).Contents (Elt Ideal)) :
    val_main_v14 (F := Ideal) x0 x1 = adjR x0 x1 := by
  funext i
  rw [val_main_v14_apply, val_main_v13_apply, val_main_cst_3_apply, val_main_v12_apply, val_main_v11_apply,
    val_main_cst_2_apply, val_main_v10_apply, val_main_v9_apply, val_main_v8_apply]
  rfl

/-- The second result: likewise `rkR`. -/
theorem rk_eq (x2 : (⟨S1x128, .f32⟩ : BufTy).Contents (Elt Ideal)) :
    val_main_v15 (F := Ideal) x2 = rkR x2 := by
  funext j
  rw [val_main_v15_apply, val_main_v7_apply, val_main_v6_apply, val_main_cst_1_apply, val_main_v5_apply,
    val_main_v4_apply, val_main_cst_0_apply, val_main_v3_apply, val_main_v2_apply, val_main_cst_apply,
    val_main_v1_apply, val_main_v0_apply]
  rfl

end Cert.ReferenceIdeal.RefValue

end
-- ==== Proof.Finite.lean ====
/-
  What the precondition gives: every entry of the three inputs is a real number.

  The precondition is the conjunction of three tests, one per input, each saying that every entry's absolute value
  is below +∞. On the extended reals `max x (-x) < +∞` excludes exactly `x = +∞` and `x = -∞`.
-/
import proofs.«130213_g55533927137529_cont_9to1_m_314_6_alg».proof.Pre_finite_inputs
import Idealize.ShloMosaic.Lib.ReduceAll
import Idealize.ShloMosaic.Lib.Affine
import Idealize.ShloMosaic.PureOps.Ideal.Laws

noncomputable section

namespace Cert.Finite

open Idealize.ShloMosaic

/-- The word of +∞ denotes the top of the extended reals. -/
theorem ofBits_inf : Ideal.ofBits .f32 0x7F800000#32 = ⊤ := by
  simp [Ideal.ofBits, Ideal.ieee]

/-- An extended real whose absolute value compares below +∞ is a real number. -/
theorem real_of_abs_lt_top (x : EReal) (h : Ideal.cmp .olt (max x (-x)) ⊤ = 1#1) : ∃ r : ℝ, x = (r : EReal) := by
  have hlt : max x (-x) < ⊤ := by
    unfold Ideal.cmp at h
    by_contra hn
    simp [hn] at h
  induction x using EReal.rec with
  | bot => simp at hlt
  | coe r => exact ⟨r, rfl⟩
  | top => simp at hlt

variable [Cert.Pre_finite_inputs.Facts]
open Cert.Pre_finite_inputs Cert.Pre_finite_inputs.Facts

/-- The rank-0 shape has one index. -/
instance : Subsingleton Cert.Pre_finite_inputs.S_.Idx := ⟨fun a b => funext fun d => d.elim0⟩

/-- One test read at an entry. -/
theorem real_of_test {s : Shape} (hb : S_.BroadcastsInDim s (![] : Fin 0 → Fin s.rank)) (a : FVec Ideal s .f32) (i : s.Idx)
    (e : cmpf (F := Ideal) .olt (Host.absf a) (broadcastInDim s ![] hb (constant (F := Ideal) S_ .f32 0x7F800000#32)) i = 1#1) :
    ∃ r : ℝ, a i = (r : EReal) := by
  have e' : Ideal.cmp .olt (max (a i) (-(a i))) (Ideal.ofBits .f32 0x7F800000#32) = 1#1 := e
  rw [ofBits_inf] at e'
  exact real_of_abs_lt_top _ e'

/-- The precondition, all ones, makes every entry of the three inputs a real number. -/
theorem finite_of_pre (a0 a1 : FVec Ideal S2x4096x128 .f32) (a2 : FVec Ideal S1x128 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h (fun d => d.elim0)
  dsimp only [Cert.Pre_finite_inputs.fn] at h0
  obtain ⟨h01, h2⟩ := IntOp.andi_eq_one.mp h0
  obtain ⟨h0', h1'⟩ := IntOp.andi_eq_one.mp h01
  refine ⟨fun i => ?_, fun i => ?_, fun i => ?_⟩
  · exact real_of_test bcast_S_S2x4096x128 a0 i (Host.reduce_andi_all _ _ _ _ _ h0' i)
  · exact real_of_test bcast_S_S2x4096x128 a1 i (Host.reduce_andi_all _ _ _ _ _ h1' i)
  · exact real_of_test bcast_S_S1x128 a2 i (Host.reduce_andi_all _ _ _ _ _ h2 i)

end Cert.Finite

end
-- ==== Proof.lean ====
/-
  The certificate's five claims, assembled.

  The kernel computes, for each batch, the logistic function of every inner product of a row of the first operand
  with a row of the second, writing the logistic function as `1/2 · tanh (s/2) + 1/2` with the factor 1/2 folded into
  the first operand before the matrix product; and it returns the logistic function of the third argument. The
  reference computes `1 / (1 + e^(-s))` of the same inner products, and returns the square of the square root of the
  logistic function of the third argument. On inputs whose entries are all real numbers (the precondition) the two
  agree exactly: `Σ (aₖ/2)·bₖ = (Σ aₖ·bₖ)/2`, `1/2 · tanh (s/2) + 1/2 = 1 / (1 + e^(-s))`, and `(σ^(1/2))² = σ` for
  `σ > 0`.

  The three frames: each kernel program runs the body at its sixteen grid points and leaves its arguments unchanged
  (Proof/LaunchKernel.lean, Proof/LaunchIdeal.lean: one text at the two instances); the reference is a straight line
  of host operations. Nothing was rewritten between the kernel and its idealization, so that claim is `True`. The
  equality of results joins the idealized kernel's run read as whole-array functions (Proof/KernelValue.lean) with the
  reference's (Proof/RefValue.lean) by the scalar identities (Proof/Sigmoid.lean) on entries the precondition makes
  real (Proof/Finite.lean).
-/
import proofs.«130213_g55533927137529_cont_9to1_m_314_6_alg».proof.Defs
import proofs.«130213_g55533927137529_cont_9to1_m_314_6_alg».proof.Proof.Gen.Kernel
import proofs.«130213_g55533927137529_cont_9to1_m_314_6_alg».proof.Proof.Gen.KernelIdeal
import proofs.«130213_g55533927137529_cont_9to1_m_314_6_alg».proof.Proof.Gen.ReferenceIdeal
import proofs.«130213_g55533927137529_cont_9to1_m_314_6_alg».proof.Proof.Gen.Pre_finite_inputs
import proofs.«130213_g55533927137529_cont_9to1_m_314_6_alg».proof.Proof.LaunchKernel
import proofs.«130213_g55533927137529_cont_9to1_m_314_6_alg».proof.Proof.LaunchIdeal
import proofs.«130213_g55533927137529_cont_9to1_m_314_6_alg».proof.Proof.KernelValue
import proofs.«130213_g55533927137529_cont_9to1_m_314_6_alg».proof.Proof.RefValue
import proofs.«130213_g55533927137529_cont_9to1_m_314_6_alg».proof.Proof.Finite
import Idealize.ShloMosaic.Adequacy
import Idealize.ShloMosaic.Init

noncomputable section

namespace Cert.Proof

open Idealize.ShloMosaic Idealize.ShloMosaic.TcCoe Idealize.SL.Sem
open Cert.Sigmoid (adjK adjR rkK rkR)

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- The idealization rewrote nothing. -/
theorem preserves : Cert.preserves_Kernel_KernelIdeal := trivial

/-- From memories that agree on the arguments, all of whose entries are real, both idealized programs end with the same
    two results: the kernel's `adjK` and `rkK` are the reference's `adjR` and `rkR`. -/
theorem algebraic : Cert.algebraic_KernelIdeal_ReferenceIdeal := by
  intro m ρ m' ρ' hpre hagree
  refine ⟨fun c => adjK (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => m ((c.tc : Thread Cert.KernelIdeal.nD Cert.KernelIdeal.τ).loc Cert.KernelIdeal.main_arg0),
    fun c => m ((c.tc : Thread Cert.KernelIdeal.nD Cert.KernelIdeal.τ).loc Cert.KernelIdeal.main_arg1),
    fun c => rkK (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ?_) (Cert.ReferenceIdeal.Value.run (F := Ideal) m' ρ')
  obtain ⟨h14, ha0, ha1, h15, -, -, ha2⟩ := h c
  obtain ⟨f0, f1, f2⟩ := Cert.Finite.finite_of_pre _ _ _ (hpre c)
  refine ⟨?_, ha0.trans (hagree c).1, ha1.trans (hagree c).2.1, ?_, ha0, ha1, ha2⟩
  · rw [h14, Cert.ReferenceIdeal.Read.val_main_v14_eq, Cert.ReferenceIdeal.RefValue.adj_eq, (hagree c).1, (hagree c).2.1]
    exact (Cert.Sigmoid.adjK_eq_adjR _ _ f0 f1).symm
  · rw [h15, Cert.ReferenceIdeal.Read.val_main_v15_eq, Cert.ReferenceIdeal.RefValue.rk_eq, (hagree c).2.2]
    exact Cert.Sigmoid.rkR_eq_rkK _ f2

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
